-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x640000 : Shape := ⟨2, ![2, 640000]⟩
abbrev S640000 : Shape := ⟨1, ![640000]⟩
abbrev S4x128 : Shape := ⟨2, ![4, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S640000 : S_.BroadcastsInDim S640000 (![] : Fin 0 → Fin S640000.rank)
  reducesTo_S640000_S_d0 : S640000.ReducesTo [0] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  main_v38

def fn_part1 {F : FTy → Type} [FloatOps F] (main_arg5 : FVec F S4x128 .f32) (main_arg6 : FVec F S128x1 .f32) (main_arg7 : FVec F S1 .f32) (main_arg8 : FVec F S128x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_v33

def fn {F : FTy → Type} [FloatOps F] (main_arg0 : FVec F S100000x4 .f32) (main_arg1 : IVec S2x640000 32) (main_arg2 : FVec F S640000 .f32) (main_arg3 : FVec F S4x128 .f32) (main_arg4 : FVec F S128 .f32) (main_arg5 : FVec F S4x128 .f32) (main_arg6 : FVec F S128x1 .f32) (main_arg7 : FVec F S1 .f32) (main_arg8 : FVec F S128x1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x4 : Shape := ⟨2, ![100000, 4]⟩
abbrev S2x640000 : Shape := ⟨2, ![2, 640000]⟩
abbrev S640000 : Shape := ⟨1, ![640000]⟩
abbrev S4x128 : Shape := ⟨2, ![4, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S_ : Shape := ⟨0, ![]⟩
abbrev S640000x1 : Shape := ⟨2, ![640000, 1]⟩
abbrev S640000x4 : Shape := ⟨2, ![640000, 4]⟩
abbrev S1x128 : Shape := ⟨2, ![1, 128]⟩
abbrev S100000x128 : Shape := ⟨2, ![100000, 128]⟩
abbrev S5000x4 : Shape := ⟨2, ![5000, 4]⟩
abbrev S5000x128 : Shape := ⟨2, ![5000, 128]⟩
abbrev S640000x128 : Shape := ⟨2, ![640000, 128]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 49
  | .vmem => 18
  | .smem => 0
  | _ => 0

abbrev bufTy : (tb : Table) → Fin (tcTables nBuf tb) → BufTy
  | .hbm, ⟨0, _⟩ => ⟨S100000x4, .f32⟩
  | .hbm, ⟨1, _⟩ => ⟨S2x640000, .i32⟩
  | .hbm, ⟨2, _⟩ => ⟨S640000, .f32⟩
  | .hbm, ⟨3, _⟩ => ⟨S4x128, .f32⟩
  | .hbm, ⟨4, _⟩ => ⟨S128, .f32⟩
  | .hbm, ⟨5, _⟩ => ⟨S4x128, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x4, .f32⟩
  | .hbm, ⟨22, _⟩ => ⟨S640000x1, .f32⟩
  | .hbm, ⟨23, _⟩ => ⟨S640000x4, .f32⟩
  | .hbm, ⟨24, _⟩ => ⟨S640000x4, .f32⟩
  | .hbm, ⟨25, _⟩ => ⟨S_, .f32⟩
  | .hbm, ⟨26, _⟩ => ⟨S100000x4, .f32⟩
  | .hbm, ⟨27, _⟩ => ⟨S640000x1, .i32⟩
  | .hbm, ⟨28, _⟩ => ⟨S100000x4, .f32⟩
  | .hbm, ⟨29, _⟩ => ⟨S1x128, .f32⟩
  | .hbm, ⟨30, _⟩ => ⟨S100000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .f32⟩
  | .hbm, ⟨40, _⟩ => ⟨S640000x1, .f32⟩
  | .hbm, ⟨41, _⟩ => ⟨S640000x128, .f32⟩
  | .hbm, ⟨42, _⟩ => ⟨S640000x128, .f32⟩
  | .hbm, ⟨43, _⟩ => ⟨S_, .f32⟩
  | .hbm, ⟨44, _⟩ => ⟨S100000x128, .f32⟩
  | .hbm, ⟨45, _⟩ => ⟨S640000x1, .i32⟩
  | .hbm, ⟨46, _⟩ => ⟨S100000x128, .f32⟩
  | .hbm, ⟨47, _⟩ => ⟨S1x1, .f32⟩
  | .hbm, ⟨48, _⟩ => ⟨S100000x1, .f32⟩
  | .local _ .vmem, ⟨0, _⟩ => ⟨S5000x4, .f32⟩
  | .local _ .vmem, ⟨1, _⟩ => ⟨S5000x4, .f32⟩
  | .local _ .vmem, ⟨2, _⟩ => ⟨S5000x4, .f32⟩
  | .local _ .vmem, ⟨3, _⟩ => ⟨S5000x4, .f32⟩
  | .local _ .vmem, ⟨4, _⟩ => ⟨S4x128, .f32⟩
  | .local _ .vmem, ⟨5, _⟩ => ⟨S1x128, .f32⟩
  | .local _ .vmem, ⟨6, _⟩ => ⟨S4x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x1, .f32⟩
  | .local _ .vmem, ⟨14, _⟩ => ⟨S1x1, .f32⟩
  | .local _ .vmem, ⟨15, _⟩ => ⟨S128x1, .f32⟩
  | .local _ .vmem, ⟨16, _⟩ => ⟨S5000x1, .f32⟩
  | .local _ .vmem, ⟨17, _⟩ => ⟨S5000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x4_0_1 : S640000x1.BroadcastsInDim S640000x4 (![0, 1] : Fin 2 → Fin S640000x4.rank)
  bcast_S_S100000x4 : S_.BroadcastsInDim S100000x4 (![] : Fin 0 → Fin S100000x4.rank)
  shapeCasts_S128_S1x128 : S128.ShapeCasts S1x128
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  shapeCasts_S1_S1x1 : S1.ShapeCasts S1x1
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x4_S640000x1_S640000x4_1_0_n_n_0_1_14_wf : GatherDims.WF S100000x4 S640000x1 S640000x4 [1] [0] [] [0] [] 1 ![1, 4]
  scatter_S100000x4_S640000x1_S640000x4_1_0_0_1_wf : ScatterDims.WF S100000x4 S640000x1 S640000x4 [1] [0] [0] 1
  dot_S5000x4_S4x128_S5000x128_1_0_0_1_n_n_wf : DotDims.WF S5000x4 S4x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x4.size a ≤ S100000x4.size a
  hwx0_1 : ∀ i : grid0.Coords, EltTy.bits .f32 = 32 ∨ (Rect.block (s := S100000x4) S5000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128.size a ≤ S4x128.size a
  hwx0_4 : ∀ i : grid0.Coords, EltTy.bits .f32 = 32 ∨ (Rect.block (s := S4x128) S4x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def gather_S100000x4_S640000x1_S640000x4_1_0_n_n_0_1_14 : GatherDims S100000x4 S640000x1 S640000x4 where
  offsetDims := [1]
  collapsedSliceDims := [0]
  operandBatchingDims := []
  startIndicesBatchingDims := []
  startIndexMap := [0]
  indexVectorDim := 1
  sliceSizes := ![1, 4]
  wf := gather_S100000x4_S640000x1_S640000x4_1_0_n_n_0_1_14_wf
def scatter_S100000x4_S640000x1_S640000x4_1_0_0_1 : ScatterDims S100000x4 S640000x1 S640000x4 where
  updateWindowDims := [1]
  insertedWindowDims := [0]
  scatterDimsToOperandDims := [0]
  indexVectorDim := 1
  wf := scatter_S100000x4_S640000x1_S640000x4_1_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v16) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x4 : Shape := ⟨2, ![100000, 4]⟩
abbrev S2x640000 : Shape := ⟨2, ![2, 640000]⟩
abbrev S640000 : Shape := ⟨1, ![640000]⟩
abbrev S4x128 : Shape := ⟨2, ![4, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S_ : Shape := ⟨0, ![]⟩
abbrev S640000x1 : Shape := ⟨2, ![640000, 1]⟩
abbrev S640000x4 : Shape := ⟨2, ![640000, 4]⟩
abbrev S100000x128 : Shape := ⟨2, ![100000, 128]⟩
abbrev S1x128 : Shape := ⟨2, ![1, 128]⟩
abbrev S640000x128 : Shape := ⟨2, ![640000, 128]⟩
abbrev S100000x1 : Shape := ⟨2, ![100000, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x640000, .i32⟩
  | .hbm, ⟨2, _⟩ => ⟨S640000, .f32⟩
  | .hbm, ⟨3, _⟩ => ⟨S4x128, .f32⟩
  | .hbm, ⟨4, _⟩ => ⟨S128, .f32⟩
  | .hbm, ⟨5, _⟩ => ⟨S4x128, .f32⟩
  | .hbm, ⟨6, _⟩ => ⟨S128x1, .f32⟩
  | .hbm, ⟨7, _⟩ => ⟨S1, .f32⟩
  | .hbm, ⟨8, _⟩ => ⟨S128x1, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x4, .f32⟩
  | .hbm, ⟨22, _⟩ => ⟨S640000x1, .f32⟩
  | .hbm, ⟨23, _⟩ => ⟨S640000x4, .f32⟩
  | .hbm, ⟨24, _⟩ => ⟨S640000x4, .f32⟩
  | .hbm, ⟨25, _⟩ => ⟨S_, .f32⟩
  | .hbm, ⟨26, _⟩ => ⟨S100000x4, .f32⟩
  | .hbm, ⟨27, _⟩ => ⟨S640000x1, .i32⟩
  | .hbm, ⟨28, _⟩ => ⟨S100000x4, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x128, .f32⟩
  | .hbm, ⟨47, _⟩ => ⟨S640000x1, .f32⟩
  | .hbm, ⟨48, _⟩ => ⟨S640000x128, .f32⟩
  | .hbm, ⟨49, _⟩ => ⟨S640000x128, .f32⟩
  | .hbm, ⟨50, _⟩ => ⟨S_, .f32⟩
  | .hbm, ⟨51, _⟩ => ⟨S100000x128, .f32⟩
  | .hbm, ⟨52, _⟩ => ⟨S640000x1, .i32⟩
  | .hbm, ⟨53, _⟩ => ⟨S100000x128, .f32⟩
  | .hbm, ⟨54, _⟩ => ⟨S100000x1, .f32⟩
  | .hbm, ⟨55, _⟩ => ⟨S1x1, .f32⟩
  | .hbm, ⟨56, _⟩ => ⟨S100000x1, .f32⟩
  | .hbm, ⟨57, _⟩ => ⟨S100000x1, .f32⟩
  | .hbm, ⟨58, _⟩ => ⟨S100000x1, .f32⟩
  | .hbm, ⟨59, _⟩ => ⟨S100000x1, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x4_0_1 : S640000x1.BroadcastsInDim S640000x4 (![0, 1] : Fin 2 → Fin S640000x4.rank)
  bcast_S_S100000x4 : S_.BroadcastsInDim S100000x4 (![] : Fin 0 → Fin S100000x4.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S640000x1_S640000x128_0_1 : S640000x1.BroadcastsInDim S640000x128 (![0, 1] : Fin 2 → Fin S640000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x4_S640000x1_S640000x4_1_0_n_n_0_1_14_wf : GatherDims.WF S100000x4 S640000x1 S640000x4 [1] [0] [] [0] [] 1 ![1, 4]
  scatter_S100000x4_S640000x1_S640000x4_1_0_0_1_wf : ScatterDims.WF S100000x4 S640000x1 S640000x4 [1] [0] [0] 1
  dot_S100000x4_S4x128_S100000x128_1_0_0_1_n_n_wf : DotDims.WF S100000x4 S4x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x1_S100000x1_1_0_0_1_n_n_wf : DotDims.WF S100000x128 S128x1 S100000x1 [1] [0] [0] [1] [] []

variable [Facts₀]

def gather_S100000x4_S640000x1_S640000x4_1_0_n_n_0_1_14 : GatherDims S100000x4 S640000x1 S640000x4 where
  offsetDims := [1]
  collapsedSliceDims := [0]
  operandBatchingDims := []
  startIndicesBatchingDims := []
  startIndexMap := [0]
  indexVectorDim := 1
  sliceSizes := ![1, 4]
  wf := gather_S100000x4_S640000x1_S640000x4_1_0_n_n_0_1_14_wf
def scatter_S100000x4_S640000x1_S640000x4_1_0_0_1 : ScatterDims S100000x4 S640000x1 S640000x4 where
  updateWindowDims := [1]
  insertedWindowDims := [0]
  scatterDimsToOperandDims := [0]
  indexVectorDim := 1
  wf := scatter_S100000x4_S640000x1_S640000x4_1_0_0_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The kernel program's run with its result read: every weakly fair execution of the two regions and the host operations
  around them terminates with the result buffer holding what the last segment boundary's valuation gives it, and the
  nine argument arrays as launched.

  The program is a list of four segments (host operations, the first region, host operations, the second region). The
  buffer contents at each boundary are a fold from the launch memory: a stretch of host operations applies its operations,
  a region replaces each of its arrays by what its write-backs leave. The last boundary's valuation therefore names the
  result array as the second region's output array after its last grid point.
-/
import proofs.«150801_j80513456931023_1_alg».proof.Proof.Gen.KernelIdeal.Frame

set_option maxRecDepth 16384

noncomputable section

namespace Cert.GraphConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's valuation. -/
theorem run_result : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.GraphConv

end
-- ==== Proof.HostChains.lean ====
/-
  What the host operations put in front of each region, named by the reference's stages.

  Both programs run the same host operations on the same arguments before the first layer's linear step — slice the two
  rows of the edge list, wrap negative sources, gather the source nodes' features, scale each by its edge's weight, and
  scatter-add the products at the destinations — so the kernel's first region finds, as its aggregated features, exactly
  the reference's aggregation stage of the arguments; the bias vector arrives as one row.
-/
import proofs.«150801_j80513456931023_1_alg».proof.Proof.Gen.KernelIdeal.Frame
import proofs.«150801_j80513456931023_1_alg».proof.Proof.Gen.ReferenceIdeal.Read
import Idealize.ShloMosaic.Lib.ValueLayout

set_option maxRecDepth 16384

noncomputable section

namespace Cert.GraphConv

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Before the first region -/

/-- The first region's aggregated features are the reference's first aggregation stage of the arguments. -/
theorem entry0_agg : W1 m ρ c (Proc.devRef .tc main_v16)
    = Cert.ReferenceIdeal.Read.val_main_v16 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v16) = _
  after_results_simp
  rfl

/-- The sources and destinations of the edges, as the first stretch of host operations leaves them. -/
theorem entry0_src : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results
  rfl
theorem entry0_dst : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  rfl

/-- The bias vector as one row. -/
theorem entry0_bias : W1 m ρ c (Proc.devRef .tc main_v17) = shapeCast S1x128 (m ((c.tc : Thread nD τ).loc main_arg4)) shapeCasts_S128_S1x128 := by
  show StableHlo.after hostOps0 (W0 m ρ c) (Proc.devRef .tc main_v17) = _
  after_results
  rfl

/-- The host operations leave the arguments alone. -/
theorem entry0_arg0 : W1 m ρ c (Proc.devRef .tc main_arg0) = (m ((c.tc : Thread nD τ).loc main_arg0)) := by
  show StableHlo.after hostOps0 (W0 m ρ c) (Proc.devRef .tc main_arg0) = _
  after_results
theorem entry0_arg2 : W1 m ρ c (Proc.devRef .tc main_arg2) = (m ((c.tc : Thread nD τ).loc main_arg2)) := by
  show StableHlo.after hostOps0 (W0 m ρ c) (Proc.devRef .tc main_arg2) = _
  after_results
theorem entry0_arg3 : W1 m ρ c (Proc.devRef .tc main_arg3) = (m ((c.tc : Thread nD τ).loc main_arg3)) := by
  show StableHlo.after hostOps0 (W0 m ρ c) (Proc.devRef .tc main_arg3) = _
  after_results
theorem entry0_arg5 : W1 m ρ c (Proc.devRef .tc main_arg5) = (m ((c.tc : Thread nD τ).loc main_arg5)) := by
  show StableHlo.after hostOps0 (W0 m ρ c) (Proc.devRef .tc main_arg5) = _
  after_results
theorem entry0_arg6 : W1 m ρ c (Proc.devRef .tc main_arg6) = (m ((c.tc : Thread nD τ).loc main_arg6)) := by
  show StableHlo.after hostOps0 (W0 m ρ c) (Proc.devRef .tc main_arg6) = _
  after_results
theorem entry0_arg7 : W1 m ρ c (Proc.devRef .tc main_arg7) = (m ((c.tc : Thread nD τ).loc main_arg7)) := by
  show StableHlo.after hostOps0 (W0 m ρ c) (Proc.devRef .tc main_arg7) = _
  after_results
theorem entry0_arg8 : W1 m ρ c (Proc.devRef .tc main_arg8) = (m ((c.tc : Thread nD τ).loc main_arg8)) := by
  show StableHlo.after hostOps0 (W0 m ρ c) (Proc.devRef .tc main_arg8) = _
  after_results

/-! ## Between the regions

The first region writes only its result array, so everything else is as the first stretch of host operations left it.
The second stretch gathers, scales and scatter-adds the hidden features exactly as the reference's second aggregation
stage does: given that the first region's result is the reference's hidden-feature stage, the second region finds the
reference's second aggregation stage. -/

theorem mid_src : W2 m ρ c (Proc.devRef .tc main_v1) = Cert.ReferenceIdeal.Read.val_main_v1 (F := Ideal) (m ((c.tc : Thread nD τ).loc main_arg1)) :=
  (W2_of_ne m ρ c main_v1 (by decide)).trans (entry0_src m ρ c)
theorem mid_dst : W2 m ρ c (Proc.devRef .tc main_v3) = Cert.ReferenceIdeal.Read.val_main_v3 (F := Ideal) (m ((c.tc : Thread nD τ).loc main_arg1)) :=
  (W2_of_ne m ρ c main_v3 (by decide)).trans (entry0_dst m ρ c)
theorem mid_arg2 : W2 m ρ c (Proc.devRef .tc main_arg2) = (m ((c.tc : Thread nD τ).loc main_arg2)) :=
  (W2_of_ne m ρ c main_arg2 (by decide)).trans (entry0_arg2 m ρ c)
theorem mid_arg6 : W2 m ρ c (Proc.devRef .tc main_arg6) = (m ((c.tc : Thread nD τ).loc main_arg6)) :=
  (W2_of_ne m ρ c main_arg6 (by decide)).trans (entry0_arg6 m ρ c)
theorem mid_arg7 : W2 m ρ c (Proc.devRef .tc main_arg7) = (m ((c.tc : Thread nD τ).loc main_arg7)) :=
  (W2_of_ne m ρ c main_arg7 (by decide)).trans (entry0_arg7 m ρ c)
theorem mid_arg8 : W2 m ρ c (Proc.devRef .tc main_arg8) = (m ((c.tc : Thread nD τ).loc main_arg8)) :=
  (W2_of_ne m ρ c main_arg8 (by decide)).trans (entry0_arg8 m ρ c)

/-- The second region's aggregated features are the reference's second aggregation stage of the arguments. -/
theorem entry1_agg (h : W2 m ρ c (Proc.devRef .tc main_v18) = Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :
    W3 m ρ c (Proc.devRef .tc main_v31) = Cert.ReferenceIdeal.Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps1 (W2 m ρ c) (Proc.devRef .tc main_v31) = _
  after_results_simp
  rw [h, mid_src, mid_dst, mid_arg2]
  rfl

/-- The second stretch of host operations leaves the hidden features alone. -/
theorem entry1_hidden : W3 m ρ c (Proc.devRef .tc main_v18) = W2 m ρ c (Proc.devRef .tc main_v18) := by
  show StableHlo.after hostOps1 (W2 m ρ c) (Proc.devRef .tc main_v18) = _
  after_results_simp

theorem entry1_arg6 : W3 m ρ c (Proc.devRef .tc main_arg6) = (m ((c.tc : Thread nD τ).loc main_arg6)) := by
  show StableHlo.after hostOps1 (W2 m ρ c) (Proc.devRef .tc main_arg6) = _
  after_results_simp
  exact mid_arg6 m ρ c
theorem entry1_arg8 : W3 m ρ c (Proc.devRef .tc main_arg8) = (m ((c.tc : Thread nD τ).loc main_arg8)) := by
  show StableHlo.after hostOps1 (W2 m ρ c) (Proc.devRef .tc main_arg8) = _
  after_results_simp
  exact mid_arg8 m ρ c

/-- The second layer's one-element bias as a [1, 1] array. -/
theorem entry1_bias : W3 m ρ c (Proc.devRef .tc main_v32) = shapeCast S1x1 (m ((c.tc : Thread nD τ).loc main_arg7)) shapeCasts_S1_S1x1 := by
  show StableHlo.after hostOps1 (W2 m ρ c) (Proc.devRef .tc main_v32) = _
  after_results_simp
  rw [mid_arg7]
  rfl

end Cert.GraphConv

end
-- ==== Proof.NodeBlock.lean ====
/-
  One block of 5000 nodes through the body of each layer, read at a node `p` of the block and an output
  feature `q`, on the extended reals.

  A layer's body takes the block's aggregated neighbour features `a` and its own features `x` (5000 rows each), the
  two weight matrices `Wrel`, `Wroot` and the bias as one row, and stores

      (∑ₖ a[p,k]·Wrel[k,q] + ∑ₖ x[p,k]·Wroot[k,q]) + bias[q]

  (the first layer: `max` of that and 0). The change of float format on the way into the two matrix products is the
  identity on the extended reals, a matrix product into the zero accumulator is the plain sum over the contracted axis,
  and the bias row broadcast over the block reads its one row.
-/
import proofs.«150801_j80513456931023_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GraphConv

open Idealize.ShloMosaic Idealize.ShloMosaic.ValueIdx Cert.KernelIdeal Cert.KernelIdeal.Gen

/-! ## The two matrix products at an output index -/

/-- The first layer's product, [5000, 4] × [4, 128]: its operand indices at output `(p, q)` and contraction index `k`
    are `(p, k)` and `(k, q)`. -/
theorem dot4_lhs0 (i : S5000x128.Idx) (c : dot_S5000x4_S4x128_S5000x128_1_0_0_1_n_n.contr.Idx) :
    (dot_S5000x4_S4x128_S5000x128_1_0_0_1_n_n.lhsIdx i c 0).val = (i 0).val := by
  unfold DotDims.lhsIdx
  rw [dif_neg (show ¬(0 : Fin S5000x4.rank) ∈ dot_S5000x4_S4x128_S5000x128_1_0_0_1_n_n.lhsBatch by decide),
    dif_pos (show (0 : Fin S5000x4.rank) ∈ dot_S5000x4_S4x128_S5000x128_1_0_0_1_n_n.lhsNonContracting by decide)]
  rfl
theorem dot4_lhs1 (i : S5000x128.Idx) (c : dot_S5000x4_S4x128_S5000x128_1_0_0_1_n_n.contr.Idx) :
    (dot_S5000x4_S4x128_S5000x128_1_0_0_1_n_n.lhsIdx i c 1).val = (c ⟨0, by decide⟩).val :=
  dot_S5000x4_S4x128_S5000x128_1_0_0_1_n_n.lhsIdx_val_of_single rfl i c
theorem dot4_rhs0 (i : S5000x128.Idx) (c : dot_S5000x4_S4x128_S5000x128_1_0_0_1_n_n.contr.Idx) :
    (dot_S5000x4_S4x128_S5000x128_1_0_0_1_n_n.rhsIdx i c 0).val = (c ⟨0, by decide⟩).val :=
  dot_S5000x4_S4x128_S5000x128_1_0_0_1_n_n.rhsIdx_val_of_single rfl i c
theorem dot4_rhs1 (i : S5000x128.Idx) (c : dot_S5000x4_S4x128_S5000x128_1_0_0_1_n_n.contr.Idx) :
    (dot_S5000x4_S4x128_S5000x128_1_0_0_1_n_n.rhsIdx i c 1).val = (i 1).val := by
  unfold DotDims.rhsIdx
  rw [dif_neg (show ¬(1 : Fin S4x128.rank) ∈ dot_S5000x4_S4x128_S5000x128_1_0_0_1_n_n.rhsBatch by decide),
    dif_pos (show (1 : Fin S4x128.rank) ∈ dot_S5000x4_S4x128_S5000x128_1_0_0_1_n_n.rhsNonContracting by decide)]
  rfl

/-- A [5000, 4] block times a [4, 128] matrix into the zero accumulator, at `(p, q)`: the sum of the four products. -/
theorem rows_times4 {φ₁ φ₂ : FTy} (l : FVec Ideal S5000x4 φ₁) (r : FVec Ideal S4x128 φ₂) (p : Fin 5000) (q : Fin 128) :
    matmul dot_S5000x4_S4x128_S5000x128_1_0_0_1_n_n none l r (constant S5000x128 .f32 0x00000000#32) (ix2 p q)
      = ∑ k : Fin 4, l (ix2 p k) * r (ix2 k q) := by
  simp only [matmul]
  rw [Ideal.matmul_constant_zero_apply, ← Equiv.sum_comp (contrEquiv1 dot_S5000x4_S4x128_S5000x128_1_0_0_1_n_n 4 rfl rfl).symm]
  refine Finset.sum_congr rfl fun k _ => ?_
  have hk := contrEquiv1_symm_val dot_S5000x4_S4x128_S5000x128_1_0_0_1_n_n 4 rfl rfl k
  have el : dot_S5000x4_S4x128_S5000x128_1_0_0_1_n_n.lhsIdx (ix2 p q) ((contrEquiv1 dot_S5000x4_S4x128_S5000x128_1_0_0_1_n_n 4 rfl rfl).symm k) = ix2 p k :=
    funext fun a => Fin.ext (by
      match a with
      | ⟨0, _⟩ => exact dot4_lhs0 _ _
      | ⟨1, _⟩ => exact (dot4_lhs1 _ _).trans hk)
  have er : dot_S5000x4_S4x128_S5000x128_1_0_0_1_n_n.rhsIdx (ix2 p q) ((contrEquiv1 dot_S5000x4_S4x128_S5000x128_1_0_0_1_n_n 4 rfl rfl).symm k) = ix2 k q :=
    funext fun a => Fin.ext (by
      match a with
      | ⟨0, _⟩ => exact (dot4_rhs0 _ _).trans hk
      | ⟨1, _⟩ => exact dot4_rhs1 _ _)
  rw [el, er]

/-- The second layer's product, [5000, 128] × [128, 1]: the same reading of its operand indices. -/
theorem dot128_lhs0 (i : S5000x1.Idx) (c : dot_S5000x128_S128x1_S5000x1_1_0_0_1_n_n.contr.Idx) :
    (dot_S5000x128_S128x1_S5000x1_1_0_0_1_n_n.lhsIdx i c 0).val = (i 0).val := by
  unfold DotDims.lhsIdx
  rw [dif_neg (show ¬(0 : Fin S5000x128.rank) ∈ dot_S5000x128_S128x1_S5000x1_1_0_0_1_n_n.lhsBatch by decide),
    dif_pos (show (0 : Fin S5000x128.rank) ∈ dot_S5000x128_S128x1_S5000x1_1_0_0_1_n_n.lhsNonContracting by decide)]
  rfl
theorem dot128_lhs1 (i : S5000x1.Idx) (c : dot_S5000x128_S128x1_S5000x1_1_0_0_1_n_n.contr.Idx) :
    (dot_S5000x128_S128x1_S5000x1_1_0_0_1_n_n.lhsIdx i c 1).val = (c ⟨0, by decide⟩).val :=
  dot_S5000x128_S128x1_S5000x1_1_0_0_1_n_n.lhsIdx_val_of_single rfl i c
theorem dot128_rhs0 (i : S5000x1.Idx) (c : dot_S5000x128_S128x1_S5000x1_1_0_0_1_n_n.contr.Idx) :
    (dot_S5000x128_S128x1_S5000x1_1_0_0_1_n_n.rhsIdx i c 0).val = (c ⟨0, by decide⟩).val :=
  dot_S5000x128_S128x1_S5000x1_1_0_0_1_n_n.rhsIdx_val_of_single rfl i c
theorem dot128_rhs1 (i : S5000x1.Idx) (c : dot_S5000x128_S128x1_S5000x1_1_0_0_1_n_n.contr.Idx) :
    (dot_S5000x128_S128x1_S5000x1_1_0_0_1_n_n.rhsIdx i c 1).val = (i 1).val := by
  unfold DotDims.rhsIdx
  rw [dif_neg (show ¬(1 : Fin S128x1.rank) ∈ dot_S5000x128_S128x1_S5000x1_1_0_0_1_n_n.rhsBatch by decide),
    dif_pos (show (1 : Fin S128x1.rank) ∈ dot_S5000x128_S128x1_S5000x1_1_0_0_1_n_n.rhsNonContracting by decide)]
  rfl

/-- A [5000, 128] block times a [128, 1] column into the zero accumulator, at `(p, u)`: the sum of the 128 products. -/
theorem rows_times128 {φ₁ φ₂ : FTy} (l : FVec Ideal S5000x128 φ₁) (r : FVec Ideal S128x1 φ₂) (p : Fin 5000) (u : Fin 1) :
    matmul dot_S5000x128_S128x1_S5000x1_1_0_0_1_n_n none l r (constant S5000x1 .f32 0x00000000#32) (ix2 p u)
      = ∑ k : Fin 128, l (ix2 p k) * r (ix2 k u) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p u) ((contrEquiv1 dot_S5000x128_S128x1_S5000x1_1_0_0_1_n_n 128 rfl rfl).symm k) = ix2 p k :=
    funext fun a => Fin.ext (by
      match a with
      | ⟨0, _⟩ => exact dot128_lhs0 _ _
      | ⟨1, _⟩ => exact (dot128_lhs1 _ _).trans hk)
  have er : dot_S5000x128_S128x1_S5000x1_1_0_0_1_n_n.rhsIdx (ix2 p u) ((contrEquiv1 dot_S5000x128_S128x1_S5000x1_1_0_0_1_n_n 128 rfl rfl).symm k) = ix2 k u :=
    funext fun a => Fin.ext (by
      match a with
      | ⟨0, _⟩ => exact (dot128_rhs0 _ _).trans hk
      | ⟨1, _⟩ => exact dot128_rhs1 _ _)
  rw [el, er]

/-! ## The two bodies at an index -/

/-- The first layer's body on a block, at node `p` and hidden feature `q`. -/
theorem hidden_block (a x : Vec Ideal S5000x4 .f32) (wrel wroot : Vec Ideal S4x128 .f32) (b : Vec Ideal S1x128 .f32)
    (p : Fin 5000) (q : Fin 128) :
    k0_pay1 (F := Ideal) a x wrel wroot b (ix2 p q)
      = max ((∑ k : Fin 4, a (ix2 p k) * wrel (ix2 k q) + ∑ k : Fin 4, x (ix2 p k) * wroot (ix2 k q)) + b (ix2 (0 : Fin 1) q)) 0 := by
  unfold k0_pay1
  simp only [maximumf_apply, addf_apply, broadcast_apply, rows_times4, truncf_apply, shapeCast_self,
    broadcastTo_1b_ab_apply, Ideal.ofBits_def, Ideal.ofBits_zero_f32]

/-- The second layer's body on a block, at node `p` (its one output feature `u`). -/
theorem out_block (a h : Vec Ideal S5000x128 .f32) (wrel wroot : Vec Ideal S128x1 .f32) (b : Vec Ideal S1x1 .f32)
    (p : Fin 5000) (u : Fin 1) :
    k1_pay1 (F := Ideal) a h wrel wroot b (ix2 p u)
      = (∑ k : Fin 128, a (ix2 p k) * wrel (ix2 k u) + ∑ k : Fin 128, h (ix2 p k) * wroot (ix2 k u)) + b (ix2 (0 : Fin 1) u) := by
  unfold k1_pay1
  simp only [addf_apply, rows_times128, truncf_apply, shapeCast_self, broadcastTo_1b_ab_apply]

end Cert.GraphConv

end
-- ==== Proof.Layers.lean ====
/-
  The two layers of the graph convolution as functions of whole arrays, on the extended reals.

  With `A` the aggregated neighbour features of every node (the weighted scatter-sum of the gathered rows) and `X` the
  nodes' own features, a layer's linear step at node `n` and output feature `j` is

      (∑ₖ A[n,k]·Wrel[k,j] + ∑ₖ X[n,k]·Wroot[k,j]) + bias[j]

  with the bias held as one row. The first layer (4 → 128 features) is followed by `max · 0`; the second (128 → 1) is not.
-/
import Idealize.ShloMosaic.PureOps.Ideal
import Idealize.ShloMosaic.Lib.ValueIdx

noncomputable section

namespace Cert.GraphConv

open Idealize.ShloMosaic Idealize.ShloMosaic.ValueIdx

/-- The hidden features of every node: the first layer's linear step, then `max · 0`. -/
def hidden (A X : (⟨2, ![100000, 4]⟩ : Shape).Idx → EReal) (Wrel Wroot : (⟨2, ![4, 128]⟩ : Shape).Idx → EReal)
    (B : (⟨2, ![1, 128]⟩ : Shape).Idx → EReal) : (⟨2, ![100000, 128]⟩ : Shape).Idx → EReal :=
  fun i => max ((∑ k : Fin 4, A (ix2 (i 0) k) * Wrel (ix2 k (i 1)) + ∑ k : Fin 4, X (ix2 (i 0) k) * Wroot (ix2 k (i 1)))
    + B (ix2 (0 : Fin 1) (i 1))) 0

/-- The output of every node: the second layer's linear step on the aggregated hidden features `A` and the hidden
    features `H`. -/
def output (A H : (⟨2, ![100000, 128]⟩ : Shape).Idx → EReal) (Wrel Wroot : (⟨2, ![128, 1]⟩ : Shape).Idx → EReal)
    (B : (⟨2, ![1, 1]⟩ : Shape).Idx → EReal) : (⟨2, ![100000, 1]⟩ : Shape).Idx → EReal :=
  fun i => (∑ k : Fin 128, A (ix2 (i 0) k) * Wrel (ix2 k (i 1)) + ∑ k : Fin 128, H (ix2 (i 0) k) * Wroot (ix2 k (i 1)))
    + B (ix2 (0 : Fin 1) (i 1))

end Cert.GraphConv

end
-- ==== Proof.BlockOfLayer.lean ====
/-
  A block's body computes the layer's function at the block's nodes: if the block's rows of `a` and `x` are the rows of
  the whole arrays `A` and `X` at node `i 0`, and the weights and the bias row are the whole ones, then the body's value
  at `(p, q)` is the layer at the array index `i`.
-/
import proofs.«150801_j80513456931023_1_alg».proof.Proof.NodeBlock
import proofs.«150801_j80513456931023_1_alg».proof.Proof.Layers

noncomputable section

namespace Cert.GraphConv

open Idealize.ShloMosaic Idealize.ShloMosaic.ValueIdx Cert.KernelIdeal Cert.KernelIdeal.Gen

theorem hidden_of_block (A X : S100000x4.Idx → EReal) (Wrel Wroot : S4x128.Idx → EReal) (B : S1x128.Idx → EReal)
    (a x : Vec Ideal S5000x4 .f32) (wrel wroot : Vec Ideal S4x128 .f32) (b : Vec Ideal S1x128 .f32)
    (p : Fin 5000) (q : Fin 128) (i : S100000x128.Idx)
    (ha : ∀ k : Fin 4, a (ix2 p k) = A (ix2 (i 0) k)) (hx : ∀ k : Fin 4, x (ix2 p k) = X (ix2 (i 0) k))
    (hwrel : ∀ k : Fin 4, wrel (ix2 k q) = Wrel (ix2 k (i 1))) (hwroot : ∀ k : Fin 4, wroot (ix2 k q) = Wroot (ix2 k (i 1)))
    (hb : b (ix2 (0 : Fin 1) q) = B (ix2 (0 : Fin 1) (i 1))) :
    k0_pay1 (F := Ideal) a x wrel wroot b (ix2 p q) = hidden A X Wrel Wroot B i := by
  rw [hidden_block]
  unfold hidden
  simp only [ha, hx, hwrel, hwroot, hb]

theorem output_of_block (A H : S100000x128.Idx → EReal) (Wrel Wroot : S128x1.Idx → EReal) (B : S1x1.Idx → EReal)
    (a h : Vec Ideal S5000x128 .f32) (wrel wroot : Vec Ideal S128x1 .f32) (b : Vec Ideal S1x1 .f32)
    (p : Fin 5000) (u : Fin 1) (i : S100000x1.Idx)
    (ha : ∀ k : Fin 128, a (ix2 p k) = A (ix2 (i 0) k)) (hh : ∀ k : Fin 128, h (ix2 p k) = H (ix2 (i 0) k))
    (hwrel : ∀ k : Fin 128, wrel (ix2 k u) = Wrel (ix2 k (i 1))) (hwroot : ∀ k : Fin 128, wroot (ix2 k u) = Wroot (ix2 k (i 1)))
    (hb : b (ix2 (0 : Fin 1) u) = B (ix2 (0 : Fin 1) (i 1))) :
    k1_pay1 (F := Ideal) a h wrel wroot b (ix2 p u) = output A H Wrel Wroot B i := by
  rw [out_block]
  unfold output
  simp only [ha, hh, hwrel, hwroot, hb]

/-- The offsets of a body's loads and stores, which all take the whole staging buffer. -/
theorem zero_offsets : (![0, 0] : Fin 2 → Nat) = fun _ => 0 := funext fun a => by fin_cases a <;> rfl

/-! ## A whole block at once

With `E` the embedding of the block's indices into the array's, the body's whole value is the layer read through `E`. -/

theorem hidden_rows (A X : S100000x4.Idx → EReal) (Wrel Wroot : S4x128.Idx → EReal) (B : S1x128.Idx → EReal)
    (a x : Vec Ideal S5000x4 .f32) (wrel wroot : Vec Ideal S4x128 .f32) (b : Vec Ideal S1x128 .f32)
    (E : S5000x128.Idx → S100000x128.Idx)
    (ha : ∀ (p : Fin 5000) (q : Fin 128) (k : Fin 4), a (ix2 p k) = A (ix2 (E (ix2 p q) 0) k))
    (hx : ∀ (p : Fin 5000) (q : Fin 128) (k : Fin 4), x (ix2 p k) = X (ix2 (E (ix2 p q) 0) k))
    (hwrel : ∀ (p : Fin 5000) (q : Fin 128) (k : Fin 4), wrel (ix2 k q) = Wrel (ix2 k (E (ix2 p q) 1)))
    (hwroot : ∀ (p : Fin 5000) (q : Fin 128) (k : Fin 4), wroot (ix2 k q) = Wroot (ix2 k (E (ix2 p q) 1)))
    (hb : ∀ (p : Fin 5000) (q : Fin 128), b (ix2 (0 : Fin 1) q) = B (ix2 (0 : Fin 1) (E (ix2 p q) 1))) :
    k0_pay1 (F := Ideal) a x wrel wroot b = fun y => hidden A X Wrel Wroot B (E y) := by
  funext y
  obtain ⟨p, q, rfl⟩ : ∃ (p : Fin 5000) (q : Fin 128), y = ix2 p q := ⟨y 0, y 1, eq_ix2 y⟩
  exact hidden_of_block A X Wrel Wroot B a x wrel wroot b p q (E (ix2 p q)) (ha p q) (hx p q) (hwrel p q) (hwroot p q) (hb p q)

theorem output_rows (A H : S100000x128.Idx → EReal) (Wrel Wroot : S128x1.Idx → EReal) (B : S1x1.Idx → EReal)
    (a h : Vec Ideal S5000x128 .f32) (wrel wroot : Vec Ideal S128x1 .f32) (b : Vec Ideal S1x1 .f32)
    (E : S5000x1.Idx → S100000x1.Idx)
    (ha : ∀ (p : Fin 5000) (u : Fin 1) (k : Fin 128), a (ix2 p k) = A (ix2 (E (ix2 p u) 0) k))
    (hh : ∀ (p : Fin 5000) (u : Fin 1) (k : Fin 128), h (ix2 p k) = H (ix2 (E (ix2 p u) 0) k))
    (hwrel : ∀ (p : Fin 5000) (u : Fin 1) (k : Fin 128), wrel (ix2 k u) = Wrel (ix2 k (E (ix2 p u) 1)))
    (hwroot : ∀ (p : Fin 5000) (u : Fin 1) (k : Fin 128), wroot (ix2 k u) = Wroot (ix2 k (E (ix2 p u) 1)))
    (hb : ∀ (p : Fin 5000) (u : Fin 1), b (ix2 (0 : Fin 1) u) = B (ix2 (0 : Fin 1) (E (ix2 p u) 1))) :
    k1_pay1 (F := Ideal) a h wrel wroot b = fun y => output A H Wrel Wroot B (E y) := by
  funext y
  obtain ⟨p, u, rfl⟩ : ∃ (p : Fin 5000) (u : Fin 1), y = ix2 p u := ⟨y 0, y 1, eq_ix2 y⟩
  exact output_of_block A H Wrel Wroot B a h wrel wroot b p u (E (ix2 p u)) (ha p u) (hh p u) (hwrel p u) (hwroot p u) (hb p u)

end Cert.GraphConv

end
-- ==== Proof.HiddenArray.lean ====
/-
  The first region's output array after its twenty grid points: the hidden features of every node.

  Point `t` of the grid handles nodes `5000·t … 5000·t + 4999`: its blocks of the aggregated features and of the nodes'
  own features are those rows of the two arrays, the two weight matrices and the bias row are whole, and its output block
  is those rows of the result. So what point `t` writes back is block `t` of `hidden` of the arrays the region finds,
  and the twenty blocks tile the 100000 rows (row `r` lies in block `r / 5000`).
-/
import proofs.«150801_j80513456931023_1_alg».proof.Proof.Gen.KernelIdeal.Frame
import proofs.«150801_j80513456931023_1_alg».proof.Proof.BlockOfLayer

set_option maxRecDepth 16384

noncomputable section

namespace Cert.GraphConv

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The first region's block indices over its grid: the node blocks move with the point, everything else stays. -/
theorem hidden_index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the hidden features of the arrays the region finds. -/
theorem flushed_hidden (c : Dev nD) (t : Fin cfg0.N) :
    (dat0 V c).flushed 5 t = ((cfg0.win 5).blk t).view.read (Elt Ideal)
      (hidden (V c main_v16) (V c main_arg0) (V c main_arg3) (V c main_arg5) (V c main_v17)) := by
  show (cfg0.win 5).cut (grid0.coords t) ((dat0 V c).after 5 t) = _
  rw [after0_5]
  unfold out0_5
  rw [View.canon_unit_zero zero_offsets]
  simp only [View.ld_unit_zero (S := S5000x4) zero_offsets, View.ld_unit_zero (S := S4x128) zero_offsets,
    View.ld_unit_zero (S := S1x128) zero_offsets]
  obtain ⟨e00, e01, e10, e11, e20, e21, e30, e31, e40, e41, e50, e51⟩ := hidden_index_maps t
  show k0_pay1 (F := Ideal) (iblk0 V c 0 t) (iblk0 V c 1 t) (iblk0 V c 2 t) (iblk0 V c 4 t) (iblk0 V c 3 t)
      = fun y => hidden (V c main_v16) (V c main_arg0) (V c main_arg3) (V c main_arg5) (V c main_v17) (((cfg0.win 5).blk t).view.emb y)
  refine hidden_rows _ _ _ _ _ _ _ _ _ _ _ (fun p q k => ?_) (fun p q k => ?_) (fun p q k => ?_) (fun p q k => ?_) (fun p q => ?_)
  · show V c main_v16 (((cfg0.win 0).blk t).view.emb (ix2 p k)) = V c main_v16 (ix2 (((cfg0.win 5).blk t).view.emb (ix2 p q) 0) k)
    refine congrArg _ (funext fun a => Fin.ext ?_)
    match a with
    | ⟨0, _⟩ => show win0_0.index t (0 : Fin 2) * 5000 + 1 * p.val = win0_5.index t (0 : Fin 2) * 5000 + 1 * p.val; rw [e00, e50]
    | ⟨1, _⟩ => show win0_0.index t (1 : Fin 2) * 4 + 1 * k.val = k.val; rw [e01]; omega
  · show V c main_arg0 (((cfg0.win 1).blk t).view.emb (ix2 p k)) = V c main_arg0 (ix2 (((cfg0.win 5).blk t).view.emb (ix2 p q) 0) k)
    refine congrArg _ (funext fun a => Fin.ext ?_)
    match a with
    | ⟨0, _⟩ => show win0_1.index t (0 : Fin 2) * 5000 + 1 * p.val = win0_5.index t (0 : Fin 2) * 5000 + 1 * p.val; rw [e10, e50]
    | ⟨1, _⟩ => show win0_1.index t (1 : Fin 2) * 4 + 1 * k.val = k.val; rw [e11]; omega
  · show V c main_arg3 (((cfg0.win 2).blk t).view.emb (ix2 k q)) = V c main_arg3 (ix2 k (((cfg0.win 5).blk t).view.emb (ix2 p q) 1))
    refine congrArg _ (funext fun a => Fin.ext ?_)
    match a with
    | ⟨0, _⟩ => show win0_2.index t (0 : Fin 2) * 4 + 1 * k.val = k.val; rw [e20]; omega
    | ⟨1, _⟩ => show win0_2.index t (1 : Fin 2) * 128 + 1 * q.val = win0_5.index t (1 : Fin 2) * 128 + 1 * q.val; rw [e21, e51]
  · show V c main_arg5 (((cfg0.win 4).blk t).view.emb (ix2 k q)) = V c main_arg5 (ix2 k (((cfg0.win 5).blk t).view.emb (ix2 p q) 1))
    refine congrArg _ (funext fun a => Fin.ext ?_)
    match a with
    | ⟨0, _⟩ => show win0_4.index t (0 : Fin 2) * 4 + 1 * k.val = k.val; rw [e40]; omega
    | ⟨1, _⟩ => show win0_4.index t (1 : Fin 2) * 128 + 1 * q.val = win0_5.index t (1 : Fin 2) * 128 + 1 * q.val; rw [e41, e51]
  · show V c main_v17 (((cfg0.win 3).blk t).view.emb (ix2 (0 : Fin 1) q)) = V c main_v17 (ix2 (0 : Fin 1) (((cfg0.win 5).blk t).view.emb (ix2 p q) 1))
    refine congrArg _ (funext fun a => Fin.ext ?_)
    match a with
    | ⟨0, _⟩ => show win0_3.index t (0 : Fin 2) * 1 + 1 * 0 = 0; rw [e30]
    | ⟨1, _⟩ => show win0_3.index t (1 : Fin 2) * 128 + 1 * q.val = win0_5.index t (1 : Fin 2) * 128 + 1 * q.val; rw [e31, e51]

/-- An index of the result is in point `t`'s block iff each coordinate is in the block's range on its axis. -/
theorem mem_hidden_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- Every node's row lies in some point's block: row `r` in block `r / 5000`. -/
theorem hidden_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e50, e51⟩ := hidden_index_maps t
  have ht : t.val = (i 0).val / 5000 := rfl
  refine ⟨t, flush0_5 t, ?_⟩
  rw [mem_hidden_block]
  intro a
  match a with
  | ⟨0, _⟩ => show win0_5.index t (0 : Fin 2) * 5000 ≤ (i 0).val ∧ (i 0).val < win0_5.index t (0 : Fin 2) * 5000 + 5000; rw [e50, ht]; omega
  | ⟨1, _⟩ => show win0_5.index t (1 : Fin 2) * 128 ≤ (i 1).val ∧ (i 1).val < win0_5.index t (1 : Fin 2) * 128 + 128; rw [e51]; omega

/-- The first region's result array after the run: the hidden features of every node, of the arrays the region finds. -/
theorem hidden_array (c : Dev nD) :
    (dat0 V c).arrAt 5 cfg0.N = hidden (V c main_v16) (V c main_arg0) (V c main_arg3) (V c main_arg5) (V c main_v17) :=
  (dat0 V c).arrAt_eq_of_cover 5 _ (fun t _ => flushed_hidden V c t) hidden_cover

end Cert.GraphConv

end
-- ==== Proof.OutputArray.lean ====
/-
  The second region's output array after its twenty grid points: the output of every node.

  As in the first region, point `t` handles nodes `5000·t … 5000·t + 4999`: its blocks of the aggregated hidden features
  and of the hidden features are those rows of the two arrays, the two weight columns and the one-element bias are whole,
  and its output block is those rows of the result. So what point `t` writes back is block `t` of `output` of the
  arrays the region finds, and the twenty blocks tile the 100000 rows.
-/
import proofs.«150801_j80513456931023_1_alg».proof.Proof.Gen.KernelIdeal.Frame
import proofs.«150801_j80513456931023_1_alg».proof.Proof.BlockOfLayer

set_option maxRecDepth 16384

noncomputable section

namespace Cert.GraphConv

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The second region's block indices over its grid: the node blocks move with the point, everything else stays. -/
theorem output_index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the output of the arrays the region finds. -/
theorem flushed_output (c : Dev nD) (t : Fin cfg1.N) :
    (dat1 V c).flushed 5 t = ((cfg1.win 5).blk t).view.read (Elt Ideal)
      (output (V c main_v31) (V c main_v18) (V c main_arg6) (V c main_arg8) (V c main_v32)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x1) zero_offsets,
    View.ld_unit_zero (S := S1x1) zero_offsets]
  obtain ⟨e00, e01, e10, e11, e20, e21, e30, e31, e40, e41, e50, e51⟩ := output_index_maps t
  show k1_pay1 (F := Ideal) (iblk1 V c 0 t) (iblk1 V c 1 t) (iblk1 V c 2 t) (iblk1 V c 4 t) (iblk1 V c 3 t)
      = fun y => output (V c main_v31) (V c main_v18) (V c main_arg6) (V c main_arg8) (V c main_v32) (((cfg1.win 5).blk t).view.emb y)
  refine output_rows _ _ _ _ _ _ _ _ _ _ _ (fun p u k => ?_) (fun p u k => ?_) (fun p u k => ?_) (fun p u k => ?_) (fun p u => ?_)
  · show V c main_v31 (((cfg1.win 0).blk t).view.emb (ix2 p k)) = V c main_v31 (ix2 (((cfg1.win 5).blk t).view.emb (ix2 p u) 0) k)
    refine congrArg _ (funext fun a => Fin.ext ?_)
    match a with
    | ⟨0, _⟩ => show win1_0.index t (0 : Fin 2) * 5000 + 1 * p.val = win1_5.index t (0 : Fin 2) * 5000 + 1 * p.val; rw [e00, e50]
    | ⟨1, _⟩ => show win1_0.index t (1 : Fin 2) * 128 + 1 * k.val = k.val; rw [e01]; omega
  · show V c main_v18 (((cfg1.win 1).blk t).view.emb (ix2 p k)) = V c main_v18 (ix2 (((cfg1.win 5).blk t).view.emb (ix2 p u) 0) k)
    refine congrArg _ (funext fun a => Fin.ext ?_)
    match a with
    | ⟨0, _⟩ => show win1_1.index t (0 : Fin 2) * 5000 + 1 * p.val = win1_5.index t (0 : Fin 2) * 5000 + 1 * p.val; rw [e10, e50]
    | ⟨1, _⟩ => show win1_1.index t (1 : Fin 2) * 128 + 1 * k.val = k.val; rw [e11]; omega
  · show V c main_arg6 (((cfg1.win 2).blk t).view.emb (ix2 k u)) = V c main_arg6 (ix2 k (((cfg1.win 5).blk t).view.emb (ix2 p u) 1))
    refine congrArg _ (funext fun a => Fin.ext ?_)
    match a with
    | ⟨0, _⟩ => show win1_2.index t (0 : Fin 2) * 128 + 1 * k.val = k.val; rw [e20]; omega
    | ⟨1, _⟩ => show win1_2.index t (1 : Fin 2) * 1 + 1 * u.val = win1_5.index t (1 : Fin 2) * 1 + 1 * u.val; rw [e21, e51]
  · show V c main_arg8 (((cfg1.win 4).blk t).view.emb (ix2 k u)) = V c main_arg8 (ix2 k (((cfg1.win 5).blk t).view.emb (ix2 p u) 1))
    refine congrArg _ (funext fun a => Fin.ext ?_)
    match a with
    | ⟨0, _⟩ => show win1_4.index t (0 : Fin 2) * 128 + 1 * k.val = k.val; rw [e40]; omega
    | ⟨1, _⟩ => show win1_4.index t (1 : Fin 2) * 1 + 1 * u.val = win1_5.index t (1 : Fin 2) * 1 + 1 * u.val; rw [e41, e51]
  · show V c main_v32 (((cfg1.win 3).blk t).view.emb (ix2 (0 : Fin 1) u)) = V c main_v32 (ix2 (0 : Fin 1) (((cfg1.win 5).blk t).view.emb (ix2 p u) 1))
    refine congrArg _ (funext fun a => Fin.ext ?_)
    match a with
    | ⟨0, _⟩ => show win1_3.index t (0 : Fin 2) * 1 + 1 * 0 = 0; rw [e30]
    | ⟨1, _⟩ => show win1_3.index t (1 : Fin 2) * 1 + 1 * u.val = win1_5.index t (1 : Fin 2) * 1 + 1 * u.val; rw [e31, e51]

/-- An index of the result is in point `t`'s block iff each coordinate is in the block's range on its axis. -/
theorem mem_output_block (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v33).slice (win1_5.rect t)).set ↔ _
  rw [View.set_slice_whole, Rect.mem_set_unit]
  exact Iff.rfl

/-- Every node's row lies in some point's block: row `r` in block `r / 5000`. -/
theorem output_cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 20 := N_1
  let t : Fin cfg1.N := ⟨(i 0).val / 5000, by rw [hN]; omega⟩
  obtain ⟨-, -, -, -, -, -, -, -, -, -, e50, e51⟩ := output_index_maps t
  have ht : t.val = (i 0).val / 5000 := rfl
  refine ⟨t, flush1_5 t, ?_⟩
  rw [mem_output_block]
  intro a
  match a with
  | ⟨0, _⟩ => show win1_5.index t (0 : Fin 2) * 5000 ≤ (i 0).val ∧ (i 0).val < win1_5.index t (0 : Fin 2) * 5000 + 5000; rw [e50, ht]; omega
  | ⟨1, _⟩ => show win1_5.index t (1 : Fin 2) * 1 ≤ (i 1).val ∧ (i 1).val < win1_5.index t (1 : Fin 2) * 1 + 1; rw [e51]; omega

/-- The second region's result array after the run: the output of every node, of the arrays the region finds. -/
theorem output_array (c : Dev nD) :
    (dat1 V c).arrAt 5 cfg1.N = output (V c main_v31) (V c main_v18) (V c main_arg6) (V c main_arg8) (V c main_v32) :=
  (dat1 V c).arrAt_eq_of_cover 5 _ (fun t _ => flushed_output V c t) output_cover

end Cert.GraphConv

end
-- ==== Proof.RefHidden.lean ====
/-
  The reference's hidden features are the first layer's function.

  The reference computes, at node `n` and feature `j`,  `max ((∑ₖ A[n,k]·Wrel[k,j] + b[j]) + ∑ₖ x[n,k]·Wroot[k,j]) 0`
  with `A` its aggregated neighbour features; the layer function adds the two sums first and the bias last. Addition of
  extended reals is commutative and associative, so the two groupings agree (no finiteness is needed).
-/
import proofs.«150801_j80513456931023_1_alg».proof.Proof.Gen.ReferenceIdeal.Read
import proofs.«150801_j80513456931023_1_alg».proof.Proof.Layers

noncomputable section

namespace Cert.GraphConv

open Idealize.ShloMosaic Idealize.ShloMosaic.ValueIdx
open Cert.ReferenceIdeal Cert.ReferenceIdeal.Read

/-- `B` is any bias row that reads the bias vector `x4`. -/
theorem hidden_eq_ref (x0 : S100000x4.Idx → EReal) (x1 : (⟨S2x640000, .i32⟩ : BufTy).Contents (Elt Ideal)) (x2 : S640000.Idx → EReal)
    (x3 : S4x128.Idx → EReal) (x4 : S128.Idx → EReal) (x5 : S4x128.Idx → EReal)
    (B : S1x128.Idx → EReal) (hB : ∀ j : Fin 128, B (ix2 (0 : Fin 1) j) = x4 (ix1 j)) :
    hidden (val_main_v16 (F := Ideal) x0 x1 x2) x0 x3 x5 B = val_main_v23 (F := Ideal) x0 x1 x2 x3 x4 x5 := by
  funext i
  obtain ⟨n, j, rfl⟩ : ∃ (n : Fin 100000) (j : Fin 128), i = ix2 n j := ⟨i 0, i 1, eq_ix2 i⟩
  rw [val_main_v23_apply, val_main_v22_apply, val_main_v20_apply, val_main_v17_apply, val_main_v21_apply, val_main_v19_apply,
    val_main_v18_apply, val_main_call0_v0_apply, val_main_call0_cst_apply]
  have l17 : ∀ k : Fin 4, lidx_main_v17 (ix2 n j) k = ix2 n k := fun k =>
    funext fun a => Fin.ext (by match a with | ⟨0, _⟩ => rfl | ⟨1, _⟩ => rfl)
  have r17 : ∀ k : Fin 4, ridx_main_v17 (ix2 n j) k = ix2 k j := fun k =>
    funext fun a => Fin.ext (by match a with | ⟨0, _⟩ => rfl | ⟨1, _⟩ => rfl)
  have l21 : ∀ k : Fin 4, lidx_main_v21 (ix2 n j) k = ix2 n k := fun k =>
    funext fun a => Fin.ext (by match a with | ⟨0, _⟩ => rfl | ⟨1, _⟩ => rfl)
  have r21 : ∀ k : Fin 4, ridx_main_v21 (ix2 n j) k = ix2 k j := fun k =>
    funext fun a => Fin.ext (by match a with | ⟨0, _⟩ => rfl | ⟨1, _⟩ => rfl)
  have hb : idx_main_v18 (idx_main_v19 (ix2 n j)) = ix1 j :=
    funext fun a => Fin.ext (by match a with | ⟨0, _⟩ => rfl)
  show max ((∑ k : Fin 4, val_main_v16 (F := Ideal) x0 x1 x2 (ix2 n k) * x3 (ix2 k j) + ∑ k : Fin 4, x0 (ix2 n k) * x5 (ix2 k j))
      + B (ix2 (0 : Fin 1) j)) 0 = _
  simp only [l17, r17, l21, r21, hb, hB, Ideal.addf_def, Ideal.maximumf_def, Ideal.ofBits_def, Ideal.ofBits_zero_f32]
  rw [add_right_comm]

end Cert.GraphConv

end
-- ==== Proof.RefOutput.lean ====
/-
  The reference's result is the second layer's function of its aggregated hidden features and its hidden features.

  At node `n` the reference computes  `(∑ₖ A[n,k]·Wrel[k] + b) + ∑ₖ h[n,k]·Wroot[k]`; the layer function adds the two
  sums first and the bias last — again only commutativity and associativity of addition.
-/
import proofs.«150801_j80513456931023_1_alg».proof.Proof.Gen.ReferenceIdeal.Read
import proofs.«150801_j80513456931023_1_alg».proof.Proof.Layers

noncomputable section

namespace Cert.GraphConv

open Idealize.ShloMosaic Idealize.ShloMosaic.ValueIdx
open Cert.ReferenceIdeal Cert.ReferenceIdeal.Read

/-- `B` is any one-element bias that reads the bias vector `x7`. -/
theorem output_eq_ref (x0 : S100000x4.Idx → EReal) (x1 : (⟨S2x640000, .i32⟩ : BufTy).Contents (Elt Ideal)) (x2 : S640000.Idx → EReal)
    (x3 : S4x128.Idx → EReal) (x4 : S128.Idx → EReal) (x5 : S4x128.Idx → EReal)
    (x6 : S128x1.Idx → EReal) (x7 : S1.Idx → EReal) (x8 : S128x1.Idx → EReal)
    (B : S1x1.Idx → EReal) (hB : ∀ u : Fin 1, B (ix2 (0 : Fin 1) u) = x7 (ix1 u)) :
    output (val_main_v36 (F := Ideal) x0 x1 x2 x3 x4 x5) (val_main_v23 (F := Ideal) x0 x1 x2 x3 x4 x5) x6 x8 B
      = val_main_v42 (F := Ideal) x0 x1 x2 x3 x4 x5 x6 x7 x8 := by
  funext i
  obtain ⟨n, u, rfl⟩ : ∃ (n : Fin 100000) (u : Fin 1), i = ix2 n u := ⟨i 0, i 1, eq_ix2 i⟩
  rw [val_main_v42_apply, val_main_v40_apply, val_main_v37_apply, val_main_v41_apply, val_main_v39_apply, val_main_v38_apply]
  have l37 : ∀ k : Fin 128, lidx_main_v37 (ix2 n u) k = ix2 n k := fun k =>
    funext fun a => Fin.ext (by match a with | ⟨0, _⟩ => rfl | ⟨1, _⟩ => rfl)
  have r37 : ∀ k : Fin 128, ridx_main_v37 (ix2 n u) k = ix2 k u := fun k =>
    funext fun a => Fin.ext (by match a with | ⟨0, _⟩ => rfl | ⟨1, _⟩ => rfl)
  have l41 : ∀ k : Fin 128, lidx_main_v41 (ix2 n u) k = ix2 n k := fun k =>
    funext fun a => Fin.ext (by match a with | ⟨0, _⟩ => rfl | ⟨1, _⟩ => rfl)
  have r41 : ∀ k : Fin 128, ridx_main_v41 (ix2 n u) k = ix2 k u := fun k =>
    funext fun a => Fin.ext (by match a with | ⟨0, _⟩ => rfl | ⟨1, _⟩ => rfl)
  have hb : idx_main_v38 (idx_main_v39 (ix2 n u)) = ix1 u :=
    funext fun a => Fin.ext (by match a with | ⟨0, _⟩ => show 0 = u.val; omega)
  show (∑ k : Fin 128, val_main_v36 (F := Ideal) x0 x1 x2 x3 x4 x5 (ix2 n k) * x6 (ix2 k u)
      + ∑ k : Fin 128, val_main_v23 (F := Ideal) x0 x1 x2 x3 x4 x5 (ix2 n k) * x8 (ix2 k u)) + B (ix2 (0 : Fin 1) u) = _
  simp only [l37, r37, l41, r41, hb, hB, Ideal.addf_def]
  rw [add_right_comm]

end Cert.GraphConv

end
-- ==== Proof.KernelValue.lean ====
/-
  The kernel program's result array is the reference's function of the arguments.

  Following the buffer contents from boundary to boundary: the first region finds the reference's aggregated features and
  the arguments, so its output array — the hidden features of what it finds — is the reference's hidden-feature stage; the
  second stretch of host operations then builds the reference's second aggregation stage from it; and the second region's
  output array — the output layer of what it finds — is the reference's last stage.
-/
import proofs.«150801_j80513456931023_1_alg».proof.Proof.HostChains
import proofs.«150801_j80513456931023_1_alg».proof.Proof.HiddenArray
import proofs.«150801_j80513456931023_1_alg».proof.Proof.OutputArray
import proofs.«150801_j80513456931023_1_alg».proof.Proof.RefHidden
import proofs.«150801_j80513456931023_1_alg».proof.Proof.RefOutput

set_option maxRecDepth 16384

noncomputable section

namespace Cert.GraphConv

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- After the first region its result array holds the reference's hidden-feature stage of the arguments. -/
theorem hidden_value : W2 m ρ c (Proc.devRef .tc main_v18) = Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W2_arr m ρ c 5).trans ?_
  refine (hidden_array (V1 m ρ) c).trans ?_
  show hidden (W1 m ρ c (Proc.devRef .tc main_v16)) (W1 m ρ c (Proc.devRef .tc main_arg0)) (W1 m ρ c (Proc.devRef .tc main_arg3))
    (W1 m ρ c (Proc.devRef .tc main_arg5)) (W1 m ρ c (Proc.devRef .tc main_v17)) = _
  rw [entry0_agg, entry0_arg0, entry0_arg3, entry0_arg5, entry0_bias]
  exact hidden_eq_ref _ _ _ _ _ _ _ (fun j => shapeCast_a_1a_apply _ _ (0 : Fin 1) j)

/-- After the second region the result array holds the reference's last stage of the arguments. -/
theorem result_value : W4 m ρ c (Proc.devRef .tc main_v33) = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 5).trans ?_
  refine (output_array (V3 m ρ) c).trans ?_
  show output (W3 m ρ c (Proc.devRef .tc main_v31)) (W3 m ρ c (Proc.devRef .tc main_v18)) (W3 m ρ c (Proc.devRef .tc main_arg6))
    (W3 m ρ c (Proc.devRef .tc main_arg8)) (W3 m ρ c (Proc.devRef .tc main_v32)) = _
  rw [entry1_agg m ρ c (hidden_value m ρ c), entry1_hidden, hidden_value, entry1_arg6, entry1_arg8, entry1_bias]
  exact output_eq_ref _ _ _ _ _ _ _ _ _ _ (fun u => shapeCast_a_1a_apply _ _ (0 : Fin 1) u)

end Cert.GraphConv

end
-- ==== Proof.lean ====
/-
  Two layers of a graph convolution on 100000 nodes and 640000 weighted edges: for each layer the neighbours' features
  are gathered along the edges, scaled by the edge weights and scatter-added at the destination nodes (host operations,
  the same in both programs), and a linear step  `A·Wrel + X·Wroot + b`  follows, with `max · 0` after the first. The
  kernel program runs each linear step as a region over twenty blocks of 5000 nodes; the reference as two whole matrix
  products.

  On the extended reals the change of float format into the kernel's matrix products is the identity and a matrix product
  is its plain sum, so the two programs differ only in how the three terms of the linear step are grouped —
  `(A·Wrel + X·Wroot) + b` against `(A·Wrel + b) + X·Wroot` — and addition there is commutative and associative: the
  precondition is never opened.

  The three frames: the two kernel programs' are the generated several-region frames; the reference's is its generated
  run with the result dropped. The idealization rewrote nothing. The algebraic claim: the kernel program's run with its
  result read (`run_result`), its result array as the reference's last stage of the arguments (`result_value`), and the
  reference's generated run, rewritten along the agreement of the arguments.
-/
import proofs.«150801_j80513456931023_1_alg».proof.Defs
import proofs.«150801_j80513456931023_1_alg».proof.Proof.Gen.Kernel
import proofs.«150801_j80513456931023_1_alg».proof.Proof.Gen.Kernel.Skeleton
import proofs.«150801_j80513456931023_1_alg».proof.Proof.Gen.Kernel.Launch
import proofs.«150801_j80513456931023_1_alg».proof.Proof.Gen.Kernel.Points
import proofs.«150801_j80513456931023_1_alg».proof.Proof.Gen.Kernel.Frame
import proofs.«150801_j80513456931023_1_alg».proof.Proof.Gen.KernelIdeal
import proofs.«150801_j80513456931023_1_alg».proof.Proof.Gen.KernelIdeal.Skeleton
import proofs.«150801_j80513456931023_1_alg».proof.Proof.Gen.KernelIdeal.Launch
import proofs.«150801_j80513456931023_1_alg».proof.Proof.Gen.KernelIdeal.Points
import proofs.«150801_j80513456931023_1_alg».proof.Proof.Gen.KernelIdeal.Frame
import proofs.«150801_j80513456931023_1_alg».proof.Proof.Gen.ReferenceIdeal
import proofs.«150801_j80513456931023_1_alg».proof.Proof.Gen.Pre_finite_inputs
import proofs.«150801_j80513456931023_1_alg».proof.Proof.Gen.ReferenceIdeal.Run
import proofs.«150801_j80513456931023_1_alg».proof.Proof.Gen.ReferenceIdeal.Read
import proofs.«150801_j80513456931023_1_alg».proof.Proof.KernelRun
import proofs.«150801_j80513456931023_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the kernel program's arguments in their result buffers. -/
theorem algebraic : Cert.algebraic_KernelIdeal_ReferenceIdeal := by
  intro m ρ m' ρ' _ hagree
  refine ⟨fun c => Cert.ReferenceIdeal.Read.val_main_v42 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    ?_, ?_⟩
  · exact (θ_run Cert.KernelIdeal.defs _ _).mono
      (fun r h c => ⟨(h c).1.trans (Cert.GraphConv.result_value m ρ c), (h c).2⟩) (Cert.GraphConv.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
